-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096x4096 : Shape := ⟨2, ![4096, 4096]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_arg5 : FVec F S4096x4096 .f32) (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  main_v28

def fn {F : FTy → Type} [FloatOps F] (main_arg0 : FVec F S64x4096 .f32) (main_arg1 : FVec F S64x4096 .f32) (main_arg2 : FVec F S64x4096 .f32) (main_arg3 : FVec F S64x4096 .f32) (main_arg4 : FVec F S4096x4096 .f32) (main_arg5 : FVec F S4096x4096 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64x4096 .f32 := Host.absf main_arg2
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_arg4 main_arg5 main_v13 main_v16
-- ==== Kernel.lean ====
abbrev S64x4096 : Shape := ⟨2, ![64, 4096]⟩
abbrev S4096x4096 : Shape := ⟨2, ![4096, 4096]⟩
abbrev S128x4096 : Shape := ⟨2, ![128, 4096]⟩
abbrev S1024x1024 : Shape := ⟨2, ![1024, 1024]⟩
abbrev S128x1024 : Shape := ⟨2, ![128, 1024]⟩
abbrev S64x1024 : Shape := ⟨2, ![64, 1024]⟩

abbrev nBuf : Space → Nat
  | .hbm => 14
  | .vmem => 20
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S64x4096, .f32⟩
  | .hbm, ⟨3, _⟩ => ⟨S64x4096, .f32⟩
  | .hbm, ⟨4, _⟩ => ⟨S4096x4096, .f32⟩
  | .hbm, ⟨5, _⟩ => ⟨S4096x4096, .f32⟩
  | .hbm, ⟨6, _⟩ => ⟨S64x4096, .f32⟩
  | .hbm, ⟨7, _⟩ => ⟨S64x4096, .f32⟩
  | .hbm, ⟨8, _⟩ => ⟨S64x4096, .f32⟩
  | .hbm, ⟨9, _⟩ => ⟨S64x4096, .f32⟩
  | .hbm, ⟨10, _⟩ => ⟨S128x4096, .f32⟩
  | .hbm, ⟨11, _⟩ => ⟨S128x4096, .bf16⟩
  | .hbm, ⟨12, _⟩ => ⟨S64x4096, .f32⟩
  | .hbm, ⟨13, _⟩ => ⟨S64x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S128x1024, .bf16⟩
  | .local _ .vmem, ⟨5, _⟩ => ⟨S128x1024, .bf16⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S128x1024, .f32⟩
  | .local _ .vmem, ⟨19, _⟩ => ⟨S128x1024, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  concatenates_S64x4096_S64x4096_S128x4096_d0 : Shape.Concatenates [S64x4096, S64x4096] S128x4096 0
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x1024_S1024x1024_0_0 : ∀ a, (![0, 0] : Fin 2 → Nat) a + S1024x1024.size a ≤ S1024x1024.size a
  h_S1024x1024 : 0 < S1024x1024.numel
  inb_S128x1024_S64x1024_0_0 : ∀ a, (![0, 0] : Fin 2 → Nat) a + S64x1024.size a ≤ S128x1024.size a
  h_S64x1024 : 0 < S64x1024.numel
  inb_S128x1024_S64x1024_64_0 : ∀ a, (![64, 0] : Fin 2 → Nat) a + S64x1024.size a ≤ S128x1024.size a
  inb_S64x1024_S64x1024_0_0 : ∀ a, (![0, 0] : Fin 2 → Nat) a + S64x1024.size a ≤ S64x1024.size a
  dot_S128x1024_S1024x1024_S128x1024_1_1_0_0_n_n_wf : DotDims.WF S128x1024 S1024x1024 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x4096.size a
  hwx0_2 : ∀ i : grid0.Coords, EltTy.bits .bf16 = 32 ∨ (Rect.block (s := S128x4096) S128x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x4096.size a
  hwx0_3 : ∀ i : grid0.Coords, EltTy.bits .f32 = 32 ∨ (Rect.block (s := S64x4096) S64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1024.size a ≤ S64x4096.size a
  hwx0_4 : ∀ i : grid0.Coords, EltTy.bits .f32 = 32 ∨ (Rect.block (s := S64x4096) S64x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S64x4096.size a
  hwx0_5 : ∀ i : grid0.Coords, EltTy.bits .f32 = 32 ∨ (Rect.block (s := S64x4096) S64x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x1024.size a ≤ S64x4096.size a
  hwx0_6 : ∀ i : grid0.Coords, EltTy.bits .f32 = 32 ∨ (Rect.block (s := S64x4096) S64x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x1024.size a ≤ S64x4096.size a
  hwx0_7 : ∀ i : grid0.Coords, EltTy.bits .f32 = 32 ∨ (Rect.block (s := S64x4096) S64x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x1024.size a ≤ S64x4096.size a
  hwx0_8 : ∀ i : grid0.Coords, EltTy.bits .f32 = 32 ∨ (Rect.block (s := S64x4096) S64x1024.size (cc0_transform_8 i) (hinb0_8 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

abbrev win0_0 : Pipeline.Window sig grid0 :=
  Pipeline.Window.ofSpec (Memref.whole main_arg4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S64x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S64x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S64x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S64x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S64x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S64x4096 : Shape := ⟨2, ![64, 4096]⟩
abbrev S4096x4096 : Shape := ⟨2, ![4096, 4096]⟩

abbrev nBuf : Space → Nat
  | .hbm => 28
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S64x4096, .f32⟩
  | .hbm, ⟨3, _⟩ => ⟨S64x4096, .f32⟩
  | .hbm, ⟨4, _⟩ => ⟨S4096x4096, .f32⟩
  | .hbm, ⟨5, _⟩ => ⟨S4096x4096, .f32⟩
  | .hbm, ⟨6, _⟩ => ⟨S64x4096, .f32⟩
  | .hbm, ⟨7, _⟩ => ⟨S64x4096, .f32⟩
  | .hbm, ⟨8, _⟩ => ⟨S64x4096, .f32⟩
  | .hbm, ⟨9, _⟩ => ⟨S64x4096, .f32⟩
  | .hbm, ⟨10, _⟩ => ⟨S64x4096, .f32⟩
  | .hbm, ⟨11, _⟩ => ⟨S64x4096, .f32⟩
  | .hbm, ⟨12, _⟩ => ⟨S64x4096, .f32⟩
  | .hbm, ⟨13, _⟩ => ⟨S64x4096, .f32⟩
  | .hbm, ⟨14, _⟩ => ⟨S64x4096, .f32⟩
  | .hbm, ⟨15, _⟩ => ⟨S64x4096, .f32⟩
  | .hbm, ⟨16, _⟩ => ⟨S64x4096, .f32⟩
  | .hbm, ⟨17, _⟩ => ⟨S64x4096, .f32⟩
  | .hbm, ⟨18, _⟩ => ⟨S64x4096, .f32⟩
  | .hbm, ⟨19, _⟩ => ⟨S64x4096, .f32⟩
  | .hbm, ⟨20, _⟩ => ⟨S64x4096, .f32⟩
  | .hbm, ⟨21, _⟩ => ⟨S64x4096, .f32⟩
  | .hbm, ⟨22, _⟩ => ⟨S64x4096, .f32⟩
  | .hbm, ⟨23, _⟩ => ⟨S64x4096, .f32⟩
  | .hbm, ⟨24, _⟩ => ⟨S64x4096, .f32⟩
  | .hbm, ⟨25, _⟩ => ⟨S64x4096, .f32⟩
  | .hbm, ⟨26, _⟩ => ⟨S64x4096, .f32⟩
  | .hbm, ⟨27, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]

class Facts₀ : Prop where
  dot_S64x4096_S4096x4096_S64x4096_1_1_0_0_n_n_wf : DotDims.WF S64x4096 S4096x4096 S64x4096 [1] [1] [0] [0] [] []

variable [Facts₀]

def dot_S64x4096_S4096x4096_S64x4096_1_1_0_0_n_n : DotDims S64x4096 S4096x4096 S64x4096 where
  lhsContracting := [1]
  rhsContracting := [1]
  lhsNonContracting := [0]
  rhsNonContracting := [0]
  lhsBatch := []
  rhsBatch := []
  wf := dot_S64x4096_S4096x4096_S64x4096_1_1_0_0_n_n_wf

class Facts : Prop extends Facts₀ where

variable [Facts]
-- ==== Proof.Pieces.lean ====
import proofs.«108664_j16355235463758_2_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

/-!
  What each control case of the kernel body leaves behind, as values.

  At a grid point (i, j) the body adds, into each of two [128,1024] accumulators, the product of the point's
  [128,1024] block of stacked weights with its [1024,1024] block of a bus matrix (contracting the second axis of
  both); at j = 0 the accumulators are first set to zero; at j = 3 the two output blocks are then computed from the
  top and bottom halves (rows 0-63 and 64-127) of the two accumulators and the point's blocks of the four
  batch-by-bus inputs. The lemmas below read these facts off the stores each case makes.
-/
namespace Cert.KernelIdeal.Pieces
open Cert.KernelIdeal Cert.KernelIdeal.Gen
variable {F : FTy → Type} [FloatOps F]

theorem hz : (![0, 0] : Fin 2 → Nat) = fun _ => 0 := funext fun a => by fin_cases a <;> rfl

variable (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S128x1024 .bf16) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S64x1024 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S128x1024 .f32) (harg11 : arg11.IsWhole) (arg12 : Memref sig .tc .vmem S128x1024 .f32) (harg12 : arg12.IsWhole)
    (x0 : Vec F S1024x1024 .f32) (x1 : Vec F S1024x1024 .f32) (x2 : Vec F S128x1024 .bf16) (x3 : Vec F S64x1024 .f32) (x4 : Vec F S64x1024 .f32) (x5 : Vec F S64x1024 .f32) (x6 : Vec F S64x1024 .f32) (xs0 : Vec F S128x1024 .f32) (xs1 : Vec F S128x1024 .f32)

/-- A load, through any rectangle, of an accumulator that one whole store has just filled reads the stored value
    at the rectangle's indices. -/
theorem readCov_single {sg : RefSig} {κ : Kind} {sp : Space} {Val : EltTy → Type} [∀ e, Nonempty (Val e)]
    (v : View sg κ sp S128x1024 .f32) (inb : ∀ a, (![0, 0] : Fin 2 → Nat) a + S128x1024.size a ≤ S128x1024.size a)
    (w : S128x1024.Idx → Val .f32) (off' sz' : Fin 2 → Nat) (inb' : ∀ a, off' a + sz' a ≤ S128x1024.size a) :
    v.readCov [(⟨Rect.unit ![0, 0] S128x1024.size inb, w⟩ : View.Piece Val S128x1024 .f32)]
        (Rect.unit (s := S128x1024) off' sz' inb').toLoadRect
      = View.ld w (Rect.unit (s := S128x1024) off' sz' inb') := by
  have h := View.readCov_eq_canon_ld v [(⟨Rect.unit ![0, 0] S128x1024.size inb, w⟩ : View.Piece Val S128x1024 .f32)]
    (Rect.unit (s := S128x1024) off' sz' inb')
    (fun y => ⟨_, List.mem_singleton_self _, View.mem_set_unit_zero hz inb y⟩)
  rw [View.canon_unit_zero hz] at h
  exact h

/-- Rows 0-63 of a [128,1024] accumulator. -/
abbrev top (P : Vec F S128x1024 .f32) : Vec F S64x1024 .f32 :=
  View.ld P (Rect.unit (s := S128x1024) ![0, 0] S64x1024.size inb_S128x1024_S64x1024_0_0)
/-- Rows 64-127 of a [128,1024] accumulator. -/
abbrev bot (P : Vec F S128x1024 .f32) : Vec F S64x1024 .f32 :=
  View.ld P (Rect.unit (s := S128x1024) ![64, 0] S64x1024.size inb_S128x1024_S64x1024_64_0)

/-- At j = 0 the first accumulator ends at zero plus the point's product. -/
theorem sA0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay4 x2 x0 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S128x1024) hz, View.readCov_unit_zero (S := S128x1024) _ hz]
  simp only [View.readAt_eq_ld, harg4.read_unread, harg2.read_unread, View.ld_unit_zero (S := S128x1024) hz,
    View.ld_unit_zero (S := S1024x1024) hz]

/-- At j = 0 the second accumulator ends at zero plus the point's product. -/
theorem sA1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay5 x2 x1 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S128x1024) hz, View.readCov_unit_zero (S := S128x1024) _ hz]
  simp only [View.readAt_eq_ld, harg4.read_unread, harg3.read_unread, View.ld_unit_zero (S := S128x1024) hz,
    View.ld_unit_zero (S := S1024x1024) hz]

/-- At j = 1, 2 the first accumulator ends at what it held plus the point's product. -/
theorem sB0 (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay4 x2 x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  rw [View.canon_unit_zero hz]
  simp only [View.readAt_eq_ld, harg4.read_unread, harg2.read_unread, harg11.read_unread,
    View.ld_unit_zero (S := S128x1024) hz, View.ld_unit_zero (S := S1024x1024) hz]

/-- At j = 1, 2 the second accumulator ends at what it held plus the point's product. -/
theorem sB1 (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay5 x2 x1 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  rw [View.canon_unit_zero hz]
  simp only [View.readAt_eq_ld, harg4.read_unread, harg3.read_unread, harg12.read_unread,
    View.ld_unit_zero (S := S128x1024) hz, View.ld_unit_zero (S := S1024x1024) hz]

/-- At j = 3 the first accumulator ends at what it held plus the point's product. -/
theorem sC0 (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay4 x2 x0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readAt_eq_ld, harg4.read_unread, harg2.read_unread, harg11.read_unread,
    View.ld_unit_zero (S := S128x1024) hz, View.ld_unit_zero (S := S1024x1024) hz]

/-- At j = 3 the second accumulator ends at what it held plus the point's product. -/
theorem sC1 (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay5 x2 x1 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readAt_eq_ld, harg4.read_unread, harg3.read_unread, harg12.read_unread,
    View.ld_unit_zero (S := S128x1024) hz, View.ld_unit_zero (S := S1024x1024) hz]

/-- At j = 3 the first output block is the active-power combination of the halves of the two finished accumulators
    and the point's blocks of magnitude, angle and injected active power. -/
theorem oC7 (hc0 : ¬cond0_0 i) (hc1 : cond0_1 i) :
    out0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1
      = k0_pay8 (top (k0_pay4 x2 x0 xs0)) (bot (k0_pay4 x2 x0 xs0)) (top (k0_pay5 x2 x1 xs1)) (bot (k0_pay5 x2 x1 xs1)) x4 x4 x3 x5 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  rw [readCov_single arg11.view, readCov_single arg11.view, readCov_single arg12.view, readCov_single arg12.view]
  simp only [View.readAt_eq_ld, harg4.read_unread, harg2.read_unread, harg3.read_unread, harg11.read_unread,
    harg12.read_unread, harg5.read_unread, harg6.read_unread, harg7.read_unread,
    View.ld_unit_zero (S := S128x1024) hz, View.ld_unit_zero (S := S1024x1024) hz, View.ld_unit_zero (S := S64x1024) hz]

/-- At j = 3 the second output block is the reactive-power combination of the same halves and the point's blocks of
    magnitude, angle and injected reactive power. -/
theorem oC8 (hc0 : ¬cond0_0 i) (hc1 : cond0_1 i) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1
      = k0_pay9 (top (k0_pay4 x2 x0 xs0)) (bot (k0_pay4 x2 x0 xs0)) (top (k0_pay5 x2 x1 xs1)) (bot (k0_pay5 x2 x1 xs1)) x4 x4 x3 x6 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  rw [readCov_single arg11.view, readCov_single arg11.view, readCov_single arg12.view, readCov_single arg12.view]
  simp only [View.readAt_eq_ld, harg4.read_unread, harg2.read_unread, harg3.read_unread, harg11.read_unread,
    harg12.read_unread, harg5.read_unread, harg6.read_unread, harg8.read_unread,
    View.ld_unit_zero (S := S128x1024) hz, View.ld_unit_zero (S := S1024x1024) hz, View.ld_unit_zero (S := S64x1024) hz]

end Cert.KernelIdeal.Pieces
end
-- ==== Proof.Steps.lean ====
/-
  What each grid point leaves, in terms of what the point before left.

  At a point with j = 0 each accumulator ends at the accumulating store's value over zero; at every other point at
  that store's value over what the previous point left; and at a point with j = 3 the two output blocks are the
  output stores' values of the halves of the two accumulators as that point leaves them.
-/
import proofs.«108664_j16355235463758_2_alg».proof.Proof.Pieces

noncomputable section
open Idealize.ShloMosaic Idealize.ShloMosaic.TcCoe Idealize.SL.Sem

namespace Cert.KernelIdeal.Steps
open Cert.KernelIdeal Cert.KernelIdeal.Gen Cert.KernelIdeal.Pieces

variable {F : FTy → Type} [FloatOps F]
variable (m : (ℓ : Loc nD τ sig) → Buf (Elt F) ℓ) (c : Dev nD)

/-- The contents after a point depend on the point's position only. -/
theorem outsAt_congr (n n' : ℕ) (h : n < cfg0.N) (h' : n' < cfg0.N) (e : n = n') :
    outsAt0 m c n h = outsAt0 m c n' h' := by
  subst e; rfl

/-- The first accumulator after a point with j = 0. -/
theorem acc0_first (t : Fin cfg0.N) (h0 : t.val % 4 = 0) :
    (outsAt0 m c t.val t.isLt).2.2.1 = k0_pay4 (iblk m c 2 t) (iblk m c 0 t) (k0_pay1 (F := F)) := by
  have h1 : ¬t.val % 4 = 3 := by omega
  rw [outsAt0_A m c t h0 h1]
  dsimp only
  exact sA0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) ((hcond0_0 t).mpr h0) (fun h => h1 ((hcond0_1 t).mp h))

/-- The second accumulator after a point with j = 0. -/
theorem acc1_first (t : Fin cfg0.N) (h0 : t.val % 4 = 0) :
    (outsAt0 m c t.val t.isLt).2.2.2 = k0_pay5 (iblk m c 2 t) (iblk m c 1 t) (k0_pay2 (F := F)) := by
  have h1 : ¬t.val % 4 = 3 := by omega
  rw [outsAt0_A m c t h0 h1]
  dsimp only
  exact sA1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) ((hcond0_0 t).mpr h0) (fun h => h1 ((hcond0_1 t).mp h))

/-- The first accumulator after a point with j ≠ 0, over what the point before left. -/
theorem acc0_next (t : Fin cfg0.N) (h0 : ¬t.val % 4 = 0) :
    (outsAt0 m c t.val t.isLt).2.2.1 = k0_pay4 (iblk m c 2 t) (iblk m c 0 t) (outsAt0 m c (t.val - 1) (Nat.lt_of_le_of_lt (Nat.sub_le _ _) t.isLt)).2.2.1 := by
  by_cases h1 : t.val % 4 = 3
  · rw [outsAt0_C m c t h0 h1]
    dsimp only
    exact sC0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)
  · rw [outsAt0_B m c t h0 h1]
    dsimp only
    exact sB0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))

/-- The second accumulator after a point with j ≠ 0, over what the point before left. -/
theorem acc1_next (t : Fin cfg0.N) (h0 : ¬t.val % 4 = 0) :
    (outsAt0 m c t.val t.isLt).2.2.2 = k0_pay5 (iblk m c 2 t) (iblk m c 1 t) (outsAt0 m c (t.val - 1) (Nat.lt_of_le_of_lt (Nat.sub_le _ _) t.isLt)).2.2.2 := by
  by_cases h1 : t.val % 4 = 3
  · rw [outsAt0_C m c t h0 h1]
    dsimp only
    exact sC1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)
  · rw [outsAt0_B m c t h0 h1]
    dsimp only
    exact sB1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))

/-- The first output block at a point with j = 3, from the accumulators as that point leaves them. -/
theorem out7_last (t : Fin cfg0.N) (h1 : t.val % 4 = 3) :
    (outsAt0 m c t.val t.isLt).1
      = k0_pay8 (top (outsAt0 m c t.val t.isLt).2.2.1) (bot (outsAt0 m c t.val t.isLt).2.2.1)
          (top (outsAt0 m c t.val t.isLt).2.2.2) (bot (outsAt0 m c t.val t.isLt).2.2.2)
          (iblk m c 4 t) (iblk m c 4 t) (iblk m c 3 t) (iblk m c 5 t) := by
  have h0 : ¬t.val % 4 = 0 := by omega
  rw [acc0_next m c t h0, acc1_next m c t h0, outsAt0_C m c t h0 h1]
  dsimp only
  exact oC7 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)

/-- The second output block at a point with j = 3, from the accumulators as that point leaves them. -/
theorem out8_last (t : Fin cfg0.N) (h1 : t.val % 4 = 3) :
    (outsAt0 m c t.val t.isLt).2.1
      = k0_pay9 (top (outsAt0 m c t.val t.isLt).2.2.1) (bot (outsAt0 m c t.val t.isLt).2.2.1)
          (top (outsAt0 m c t.val t.isLt).2.2.2) (bot (outsAt0 m c t.val t.isLt).2.2.2)
          (iblk m c 4 t) (iblk m c 4 t) (iblk m c 3 t) (iblk m c 6 t) := by
  have h0 : ¬t.val % 4 = 0 := by omega
  rw [acc0_next m c t h0, acc1_next m c t h0, outsAt0_C m c t h0 h1]
  dsimp only
  exact oC8 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)

end Cert.KernelIdeal.Steps
end
-- ==== Proof.Payload.lean ====
/-
  The body's arithmetic read at an index, over the extended reals.

  The accumulating store leaves `acc[r,q] + ∑ₖ w[r,k]·M[q,k]` (the block product contracts the second axis of both
  operands and starts from zero; a change of float format is the identity here); the zeroing store leaves `0`; the
  two output stores are pointwise in the halves of the accumulators and the loaded blocks.
-/
import proofs.«108664_j16355235463758_2_alg».proof.Proof.Pieces
import Idealize.ShloMosaic.Lib.ValueIdx
import Idealize.ShloMosaic.PureOps.Ideal.Laws

noncomputable section
open Idealize.ShloMosaic Idealize.ShloMosaic.TcCoe Idealize.ShloMosaic.ValueIdx

namespace Cert.KernelIdeal.Payload
open Cert.KernelIdeal Cert.KernelIdeal.Gen Cert.KernelIdeal.Pieces

/-! ### The block product's operand indices -/

theorem lhs0 (i : S128x1024.Idx) (q : dot_S128x1024_S1024x1024_S128x1024_1_1_0_0_n_n.contr.Idx) :
    (dot_S128x1024_S1024x1024_S128x1024_1_1_0_0_n_n.lhsIdx i q 0).val = (i 0).val := by
  unfold DotDims.lhsIdx
  rw [dif_neg (show ¬(0 : Fin S128x1024.rank) ∈ dot_S128x1024_S1024x1024_S128x1024_1_1_0_0_n_n.lhsBatch by decide), dif_pos (show (0 : Fin S128x1024.rank) ∈ dot_S128x1024_S1024x1024_S128x1024_1_1_0_0_n_n.lhsNonContracting by decide)]
  rfl
theorem lhs1 (i : S128x1024.Idx) (q : dot_S128x1024_S1024x1024_S128x1024_1_1_0_0_n_n.contr.Idx) :
    (dot_S128x1024_S1024x1024_S128x1024_1_1_0_0_n_n.lhsIdx i q 1).val = (q ⟨0, by decide⟩).val :=
  dot_S128x1024_S1024x1024_S128x1024_1_1_0_0_n_n.lhsIdx_val_of_single rfl i q
theorem rhs0 (i : S128x1024.Idx) (q : dot_S128x1024_S1024x1024_S128x1024_1_1_0_0_n_n.contr.Idx) :
    (dot_S128x1024_S1024x1024_S128x1024_1_1_0_0_n_n.rhsIdx i q 0).val = (i 1).val := by
  unfold DotDims.rhsIdx
  rw [dif_neg (show ¬(0 : Fin S1024x1024.rank) ∈ dot_S128x1024_S1024x1024_S128x1024_1_1_0_0_n_n.rhsBatch by decide), dif_pos (show (0 : Fin S1024x1024.rank) ∈ dot_S128x1024_S1024x1024_S128x1024_1_1_0_0_n_n.rhsNonContracting by decide)]
  rfl
theorem rhs1 (i : S128x1024.Idx) (q : dot_S128x1024_S1024x1024_S128x1024_1_1_0_0_n_n.contr.Idx) :
    (dot_S128x1024_S1024x1024_S128x1024_1_1_0_0_n_n.rhsIdx i q 1).val = (q ⟨0, by decide⟩).val :=
  dot_S128x1024_S1024x1024_S128x1024_1_1_0_0_n_n.rhsIdx_val_of_single rfl i q

/-- The block product into a zero accumulator, at (r, q): `∑ₖ l[r,k]·g[q,k]`. -/
theorem matmul0_apply (l : FVec Ideal S128x1024 .bf16) (g : FVec Ideal S1024x1024 .bf16) (r : Fin 128) (q : Fin 1024) :
    matmul dot_S128x1024_S1024x1024_S128x1024_1_1_0_0_n_n none l g (constant S128x1024 .f32 0x00000000#32) (ix2 r q)
      = ∑ k : Fin 1024, l (ix2 r k) * g (ix2 q k) := by
  refine (Ideal.matmul_constant_zero_apply dot_S128x1024_S1024x1024_S128x1024_1_1_0_0_n_n none l g (ix2 r q)).trans ?_
  rw [← Equiv.sum_comp (contrEquiv1 dot_S128x1024_S1024x1024_S128x1024_1_1_0_0_n_n 1024 rfl rfl).symm]
  refine Finset.sum_congr rfl fun k _ => ?_
  have hk := contrEquiv1_symm_val dot_S128x1024_S1024x1024_S128x1024_1_1_0_0_n_n 1024 rfl rfl k
  have el : dot_S128x1024_S1024x1024_S128x1024_1_1_0_0_n_n.lhsIdx (ix2 r q) ((contrEquiv1 dot_S128x1024_S1024x1024_S128x1024_1_1_0_0_n_n 1024 rfl rfl).symm k) = ix2 r k := funext fun a => Fin.ext (by
    match a with
    | ⟨0, _⟩ => exact lhs0 _ _
    | ⟨1, _⟩ => exact (lhs1 _ _).trans hk)
  have er : dot_S128x1024_S1024x1024_S128x1024_1_1_0_0_n_n.rhsIdx (ix2 r q) ((contrEquiv1 dot_S128x1024_S1024x1024_S128x1024_1_1_0_0_n_n 1024 rfl rfl).symm k) = ix2 q k := funext fun a => Fin.ext (by
    match a with
    | ⟨0, _⟩ => exact rhs0 _ _
    | ⟨1, _⟩ => exact (rhs1 _ _).trans hk)
  rw [el, er]

/-- The first accumulating store at (r, q). -/
theorem pay4_apply (w : Vec Ideal S128x1024 .bf16) (M : Vec Ideal S1024x1024 .f32) (acc : Vec Ideal S128x1024 .f32)
    (r : Fin 128) (q : Fin 1024) :
    k0_pay4 (F := Ideal) w M acc (ix2 r q) = acc (ix2 r q) + ∑ k : Fin 1024, w (ix2 r k) * M (ix2 q k) := by
  unfold k0_pay4 k0_pay3
  dsimp only
  rw [shapeCast_self, shapeCast_self]
  refine (addf_apply _ _ _).trans ?_
  exact congrArg (acc (ix2 r q) + ·) (matmul0_apply w (truncf .bf16 M bitsLt_bf16_f32) r q)

/-- The second accumulating store at (r, q). -/
theorem pay5_apply (w : Vec Ideal S128x1024 .bf16) (M : Vec Ideal S1024x1024 .f32) (acc : Vec Ideal S128x1024 .f32)
    (r : Fin 128) (q : Fin 1024) :
    k0_pay5 (F := Ideal) w M acc (ix2 r q) = acc (ix2 r q) + ∑ k : Fin 1024, w (ix2 r k) * M (ix2 q k) := by
  unfold k0_pay5 k0_pay3
  dsimp only
  rw [shapeCast_self, shapeCast_self]
  refine (addf_apply _ _ _).trans ?_
  exact congrArg (acc (ix2 r q) + ·) (matmul0_apply w (truncf .bf16 M bitsLt_bf16_f32) r q)

/-- The zeroing stores leave zero. -/
theorem pay1_apply (j : S128x1024.Idx) : k0_pay1 (F := Ideal) j = 0 := by
  unfold k0_pay1
  rw [shapeCast_self]
  exact Ideal.ofBits_zero_f32
theorem pay2_apply (j : S128x1024.Idx) : k0_pay2 (F := Ideal) j = 0 := by
  unfold k0_pay2
  rw [shapeCast_self]
  exact Ideal.ofBits_zero_f32

/-- The active-power store, pointwise. -/
theorem pay8_apply (gc gs bc bs θ θ' v p : Vec Ideal S64x1024 .f32) (j : S64x1024.Idx) :
    k0_pay8 (F := Ideal) gc gs bc bs θ θ' v p j
      = v j * (Ideal.cos (θ j) * (gc j + bs j) + Ideal.sin (θ' j) * (gs j - bc j)) - p j := rfl

/-- The reactive-power store, pointwise. -/
theorem pay9_apply (gc gs bc bs θ θ' v p : Vec Ideal S64x1024 .f32) (j : S64x1024.Idx) :
    k0_pay9 (F := Ideal) gc gs bc bs θ θ' v p j
      = v j * (Ideal.sin (θ' j) * (gc j + bs j) - Ideal.cos (θ j) * (gs j - bc j)) - p j := rfl

/-- Row b of the top half is row b of the accumulator. -/
theorem top_apply (P : Vec Ideal S128x1024 .f32) (b : Fin 64) (q : Fin 1024) :
    top P (ix2 b q) = P (ix2 (⟨b.val, by have := b.isLt; omega⟩ : Fin 128) q) :=
  congrArg P (funext fun a => Fin.ext (by
    match a with
    | ⟨0, _⟩ => show 0 + 1 * b.val = b.val; omega
    | ⟨1, _⟩ => show 0 + 1 * q.val = q.val; omega))

/-- Row b of the bottom half is row 64 + b of the accumulator. -/
theorem bot_apply (P : Vec Ideal S128x1024 .f32) (b : Fin 64) (q : Fin 1024) :
    bot P (ix2 b q) = P (ix2 (⟨64 + b.val, by have := b.isLt; omega⟩ : Fin 128) q) :=
  congrArg P (funext fun a => Fin.ext (by
    match a with
    | ⟨0, _⟩ => show 64 + 1 * b.val = 64 + b.val; omega
    | ⟨1, _⟩ => show 0 + 1 * q.val = q.val; omega))

end Cert.KernelIdeal.Payload
end
-- ==== Proof.Spec.lean ====
/-
  The power-flow residuals as ONE function of the argument arrays, over the extended reals.

  For a batch row `b` and a bus `n`, with `c[b,k] = V[b,k]·cos θ[b,k]` and `s[b,k] = V[b,k]·sin θ[b,k]`,
  the four bilinear sums are `(G c)[b,n] = ∑ₖ c[b,k]·G[n,k]`, `(G s)`, `(B c)`, `(B s)` alike, and

    resP[b,n] = V[b,n]·(cos θ[b,n]·((G c) + (B s)) + sin θ[b,n]·((G s) − (B c))) − P[b,n]
    resQ[b,n] = V[b,n]·(sin θ[b,n]·((G c) + (B s)) − cos θ[b,n]·((G s) − (B c))) − Q[b,n].

  Both programs compute these two arrays; they differ only in how the sum over `k` is grouped.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shape of a batch-by-bus array. -/
abbrev Sbn : Shape := ⟨2, ![64, 4096]⟩
/-- The shape of a bus-by-bus matrix. -/
abbrev Snn : Shape := ⟨2, ![4096, 4096]⟩

/-- Position `1024·j + k` of an axis of 4096: entry `k` of the `j`-th of its four consecutive runs of 1024. -/
def blk (j : Fin 4) (k : Fin 1024) : Fin 4096 := ⟨1024 * j.val + k.val, by have := j.isLt; have := k.isLt; omega⟩

/-- `c[b,k] = V[b,k]·cos θ[b,k]`: row `b` of the cosine-weighted magnitudes. -/
def wcos (V θ : Sbn.Idx → EReal) (b : Fin 64) (k : Fin 4096) : EReal :=
  V (ix2 b k) * Ideal.cos (θ (ix2 b k))

/-- `s[b,k] = V[b,k]·sin θ[b,k]`: row `b` of the sine-weighted magnitudes. -/
def wsin (V θ : Sbn.Idx → EReal) (b : Fin 64) (k : Fin 4096) : EReal :=
  V (ix2 b k) * Ideal.sin (θ (ix2 b k))

/-- `(M w)[n] = ∑ₖ w[k]·M[n,k]`: a weight row against row `n` of a bus matrix. -/
def rowDot (w : Fin 4096 → EReal) (M : Snn.Idx → EReal) (n : Fin 4096) : EReal :=
  ∑ k : Fin 4096, w k * M (ix2 n k)

/-- The active-power residual. -/
def resP (V θ P : Sbn.Idx → EReal) (G B : Snn.Idx → EReal) : Sbn.Idx → EReal := fun i =>
  V i * (Ideal.cos (θ i) * (rowDot (wcos V θ (i 0)) G (i 1) + rowDot (wsin V θ (i 0)) B (i 1))
        + Ideal.sin (θ i) * (rowDot (wsin V θ (i 0)) G (i 1) - rowDot (wcos V θ (i 0)) B (i 1))) - P i

/-- The reactive-power residual. -/
def resQ (V θ Q : Sbn.Idx → EReal) (G B : Snn.Idx → EReal) : Sbn.Idx → EReal := fun i =>
  V i * (Ideal.sin (θ i) * (rowDot (wcos V θ (i 0)) G (i 1) + rowDot (wsin V θ (i 0)) B (i 1))
        - Ideal.cos (θ i) * (rowDot (wsin V θ (i 0)) G (i 1) - rowDot (wcos V θ (i 0)) B (i 1))) - Q i

end Cert.Spec

end
-- ==== Proof.HostRead.lean ====
/-
  The arrays the kernel call finds, and the blocks its windows cut from them, read at an index.

  Before the call the host forms, from the magnitudes `V` and the angles `θ` (both batch-by-bus), the two weighted
  arrays `c[b,k] = V[b,k]·cos θ[b,k]` and `s[b,k] = V[b,k]·sin θ[b,k]`, stacks them along the batch axis into one
  array of 128 rows (rows 0..63 hold `c`, rows 64..127 hold `s`) and changes its format, which over the extended
  reals is the identity. So row `b` of the stack is `c[b,·]` and row `64 + b` is `s[b,·]`.

  The call walks a 4-by-4 grid; point `t` has coordinates `(i, j) = (t / 4, t % 4)`. At that point it sees
    * of each bus-by-bus matrix the 1024-by-1024 block at block position `(i, j)`: entry `(q, k)` of the block is
      entry `(1024·i + q, 1024·j + k)` of the matrix;
    * of the stacked weights the 128-by-1024 block of columns `1024·j ..`: entry `(r, k)` is entry `(r, 1024·j + k)`;
    * of each batch-by-bus argument the 64-by-1024 block of columns `1024·i ..`: entry `(b, q)` is entry `(b, 1024·i + q)`.
  A block's coordinate along an axis is always (block position) × (block extent) + (coordinate inside the block).
-/
import proofs.«108664_j16355235463758_2_alg».proof.Proof.Gen.KernelIdeal.Frame
import proofs.«108664_j16355235463758_2_alg».proof.Proof.Spec
import Idealize.ShloMosaic.Lib.Pipeline.Value
import Idealize.ShloMosaic.Lib.ValueIdx
import Idealize.ShloMosaic.Lib.StableHlo.Run

noncomputable section

namespace Cert.KernelIdeal.HostRead

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ) (c : Dev nD)

/-! ## The stacked weights -/

/-- The stacked array as the call finds it: the format change of the stack of `V·cos θ` over `V·sin θ`. -/
theorem stack_eq :
    (V m c main_v5 : S128x4096.Idx → EReal)
      = truncf .bf16
          (concatenate S128x4096 0
            [⟨S64x4096, mulf (m ((c : Thread nD τ).loc main_arg0)) (Host.cos (m ((c : Thread nD τ).loc main_arg1)))⟩,
             ⟨S64x4096, mulf (m ((c : Thread nD τ).loc main_arg0)) (Host.sin (m ((c : Thread nD τ).loc main_arg1)))⟩]
            concatenates_S64x4096_S64x4096_S128x4096_d0 : FVec Ideal S128x4096 .f32) bitsLt_bf16_f32 := by
  dsimp only [Gen.V, Gen.hostOps0]
  after_results

/-- Row `b` of the stack, `b` below 64, is the cosine-weighted row `b`. -/
theorem cs_top (b : Fin 64) (k : Fin 4096) :
    (V m c main_v5 : S128x4096.Idx → EReal) (ix2 (⟨b.val, by have := b.isLt; omega⟩ : Fin 128) k)
      = wcos (m ((c : Thread nD τ).loc main_arg0)) (m ((c : Thread nD τ).loc main_arg1)) b k := by
  rw [stack_eq m c, truncf_apply]
  rw [concatenate_pair_apply_left (0 : Fin S128x4096.rank) _ _ concatenates_S64x4096_S64x4096_S128x4096_d0
    (ix2 (⟨b.val, by have := b.isLt; omega⟩ : Fin 128) k) rfl (ix2 b k)
    (fun d => by match d with | ⟨0, _⟩ => rfl | ⟨1, _⟩ => rfl)]
  rfl

/-- Row `64 + b` of the stack is the sine-weighted row `b`. -/
theorem cs_bot (b : Fin 64) (k : Fin 4096) :
    (V m c main_v5 : S128x4096.Idx → EReal) (ix2 (⟨64 + b.val, by have := b.isLt; omega⟩ : Fin 128) k)
      = wsin (m ((c : Thread nD τ).loc main_arg0)) (m ((c : Thread nD τ).loc main_arg1)) b k := by
  rw [stack_eq m c, truncf_apply]
  rw [concatenate_pair_apply_right (0 : Fin S128x4096.rank) _ _ concatenates_S64x4096_S64x4096_S128x4096_d0
    (ix2 (⟨64 + b.val, by have := b.isLt; omega⟩ : Fin 128) k) rfl rfl (ix2 b k)
    (fun d hd => by match d, hd with | ⟨0, _⟩, hd => exact absurd rfl hd | ⟨1, _⟩, _ => rfl)
    (by show b.val + 64 = 64 + b.val; omega)]
  rfl

/-! ## Where each window's block sits: the index maps over the grid -/

/-- Window 0's block position at point `t`: `(t.val / 4, t.val % 4)` — decided over the sixteen points. -/
theorem index0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
/-- Window 1's block position at point `t`: `(t.val / 4, t.val % 4)` — decided over the sixteen points. -/
theorem index1 : ∀ t : Fin cfg0.N, win0_1.index t 0 = t.val / 4 ∧ win0_1.index t 1 = t.val % 4 :=
  (by decide +kernel : ∀ t : Fin grid0.N, win0_1.index t 0 = t.val / 4 ∧ win0_1.index t 1 = t.val % 4)
/-- Window 2's block position at point `t`: `(0, t.val % 4)` — decided over the sixteen points. -/
theorem index2 : ∀ t : Fin cfg0.N, win0_2.index t 0 = 0 ∧ win0_2.index t 1 = t.val % 4 :=
  (by decide +kernel : ∀ t : Fin grid0.N, win0_2.index t 0 = 0 ∧ win0_2.index t 1 = t.val % 4)
/-- Window 3's block position at point `t`: `(0, t.val / 4)` — decided over the sixteen points. -/
theorem index3 : ∀ t : Fin cfg0.N, win0_3.index t 0 = 0 ∧ win0_3.index t 1 = t.val / 4 :=
  (by decide +kernel : ∀ t : Fin grid0.N, win0_3.index t 0 = 0 ∧ win0_3.index t 1 = t.val / 4)
/-- Window 4's block position at point `t`: `(0, t.val / 4)` — decided over the sixteen points. -/
theorem index4 : ∀ t : Fin cfg0.N, win0_4.index t 0 = 0 ∧ win0_4.index t 1 = t.val / 4 :=
  (by decide +kernel : ∀ t : Fin grid0.N, win0_4.index t 0 = 0 ∧ win0_4.index t 1 = t.val / 4)
/-- Window 5's block position at point `t`: `(0, t.val / 4)` — decided over the sixteen points. -/
theorem index5 : ∀ t : Fin cfg0.N, win0_5.index t 0 = 0 ∧ win0_5.index t 1 = t.val / 4 :=
  (by decide +kernel : ∀ t : Fin grid0.N, win0_5.index t 0 = 0 ∧ win0_5.index t 1 = t.val / 4)
/-- Window 6's block position at point `t`: `(0, t.val / 4)` — decided over the sixteen points. -/
theorem index6 : ∀ t : Fin cfg0.N, win0_6.index t 0 = 0 ∧ win0_6.index t 1 = t.val / 4 :=
  (by decide +kernel : ∀ t : Fin grid0.N, win0_6.index t 0 = 0 ∧ win0_6.index t 1 = t.val / 4)

/-! ## The blocks read at an index -/

/-- The conductance matrix's block at point `(i, j)`: entry `(q, k)` is entry `(1024·i + q, 1024·j + k)` of the matrix. -/
theorem iblk0_apply (t : Fin cfg0.N) (i j : Fin 4) (ht : t.val = 4 * i.val + j.val) (q k : Fin 1024) :
    (iblk m c 0 t : Vec Ideal S1024x1024 .f32) (ix2 q k)
      = m ((c : Thread nD τ).loc main_arg4) (ix2 (blk i q) (blk j k)) := by
  have hi := index0 t
  have := i.isLt; have := j.isLt
  unfold iblk
  rw [View.read_apply]
  show V m c main_arg4 _ = _
  rw [V_main_arg4]
  congr 1
  funext a
  apply Fin.ext
  match a with
  | ⟨0, _⟩ => show win0_0.index t 0 * 1024 + 1 * q.val = 1024 * i.val + q.val; rw [hi.1]; omega
  | ⟨1, _⟩ => show win0_0.index t 1 * 1024 + 1 * k.val = 1024 * j.val + k.val; rw [hi.2]; omega

/-- The susceptance matrix's block at point `(i, j)`: entry `(q, k)` is entry `(1024·i + q, 1024·j + k)` of the matrix. -/
theorem iblk1_apply (t : Fin cfg0.N) (i j : Fin 4) (ht : t.val = 4 * i.val + j.val) (q k : Fin 1024) :
    (iblk m c 1 t : Vec Ideal S1024x1024 .f32) (ix2 q k)
      = m ((c : Thread nD τ).loc main_arg5) (ix2 (blk i q) (blk j k)) := by
  have hi := index1 t
  have := i.isLt; have := j.isLt
  unfold iblk
  rw [View.read_apply]
  show V m c main_arg5 _ = _
  rw [V_main_arg5]
  congr 1
  funext a
  apply Fin.ext
  match a with
  | ⟨0, _⟩ => show win0_1.index t 0 * 1024 + 1 * q.val = 1024 * i.val + q.val; rw [hi.1]; omega
  | ⟨1, _⟩ => show win0_1.index t 1 * 1024 + 1 * k.val = 1024 * j.val + k.val; rw [hi.2]; omega

/-- The stacked weights' block at point `(i, j)`: entry `(r, k)` is entry `(r, 1024·j + k)` of the stack. -/
theorem iblk2_apply (t : Fin cfg0.N) (i j : Fin 4) (ht : t.val = 4 * i.val + j.val) (r : Fin 128) (k : Fin 1024) :
    (iblk m c 2 t : Vec Ideal S128x1024 .bf16) (ix2 r k)
      = (V m c main_v5 : S128x4096.Idx → EReal) (ix2 r (blk j k)) := by
  have hi := index2 t
  have := i.isLt; have := j.isLt
  unfold iblk
  rw [View.read_apply]
  show (V m c main_v5 : S128x4096.Idx → EReal) _ = _
  refine congrArg (V m c main_v5 : S128x4096.Idx → EReal) ?_
  funext a
  apply Fin.ext
  match a with
  | ⟨0, _⟩ => show win0_2.index t 0 * 128 + 1 * r.val = r.val; rw [hi.1]; omega
  | ⟨1, _⟩ => show win0_2.index t 1 * 1024 + 1 * k.val = 1024 * j.val + k.val; rw [hi.2]; omega

/-- The magnitudes's block at point `(i, j)`: entry `(b, q)` is entry `(b, 1024·i + q)` of the array. -/
theorem iblk3_apply (t : Fin cfg0.N) (i j : Fin 4) (ht : t.val = 4 * i.val + j.val) (b : Fin 64) (q : Fin 1024) :
    (iblk m c 3 t : Vec Ideal S64x1024 .f32) (ix2 b q)
      = m ((c : Thread nD τ).loc main_arg0) (ix2 b (blk i q)) := by
  have hi := index3 t
  have := i.isLt; have := j.isLt
  unfold iblk
  rw [View.read_apply]
  show V m c main_arg0 _ = _
  rw [V_main_arg0]
  congr 1
  funext a
  apply Fin.ext
  match a with
  | ⟨0, _⟩ => show win0_3.index t 0 * 64 + 1 * b.val = b.val; rw [hi.1]; omega
  | ⟨1, _⟩ => show win0_3.index t 1 * 1024 + 1 * q.val = 1024 * i.val + q.val; rw [hi.2]; omega

/-- The angles's block at point `(i, j)`: entry `(b, q)` is entry `(b, 1024·i + q)` of the array. -/
theorem iblk4_apply (t : Fin cfg0.N) (i j : Fin 4) (ht : t.val = 4 * i.val + j.val) (b : Fin 64) (q : Fin 1024) :
    (iblk m c 4 t : Vec Ideal S64x1024 .f32) (ix2 b q)
      = m ((c : Thread nD τ).loc main_arg1) (ix2 b (blk i q)) := by
  have hi := index4 t
  have := i.isLt; have := j.isLt
  unfold iblk
  rw [View.read_apply]
  show V m c main_arg1 _ = _
  rw [V_main_arg1]
  congr 1
  funext a
  apply Fin.ext
  match a with
  | ⟨0, _⟩ => show win0_4.index t 0 * 64 + 1 * b.val = b.val; rw [hi.1]; omega
  | ⟨1, _⟩ => show win0_4.index t 1 * 1024 + 1 * q.val = 1024 * i.val + q.val; rw [hi.2]; omega

/-- The active-power injections's block at point `(i, j)`: entry `(b, q)` is entry `(b, 1024·i + q)` of the array. -/
theorem iblk5_apply (t : Fin cfg0.N) (i j : Fin 4) (ht : t.val = 4 * i.val + j.val) (b : Fin 64) (q : Fin 1024) :
    (iblk m c 5 t : Vec Ideal S64x1024 .f32) (ix2 b q)
      = m ((c : Thread nD τ).loc main_arg2) (ix2 b (blk i q)) := by
  have hi := index5 t
  have := i.isLt; have := j.isLt
  unfold iblk
  rw [View.read_apply]
  show V m c main_arg2 _ = _
  rw [V_main_arg2]
  congr 1
  funext a
  apply Fin.ext
  match a with
  | ⟨0, _⟩ => show win0_5.index t 0 * 64 + 1 * b.val = b.val; rw [hi.1]; omega
  | ⟨1, _⟩ => show win0_5.index t 1 * 1024 + 1 * q.val = 1024 * i.val + q.val; rw [hi.2]; omega

/-- The reactive-power injections's block at point `(i, j)`: entry `(b, q)` is entry `(b, 1024·i + q)` of the array. -/
theorem iblk6_apply (t : Fin cfg0.N) (i j : Fin 4) (ht : t.val = 4 * i.val + j.val) (b : Fin 64) (q : Fin 1024) :
    (iblk m c 6 t : Vec Ideal S64x1024 .f32) (ix2 b q)
      = m ((c : Thread nD τ).loc main_arg3) (ix2 b (blk i q)) := by
  have hi := index6 t
  have := i.isLt; have := j.isLt
  unfold iblk
  rw [View.read_apply]
  show V m c main_arg3 _ = _
  rw [V_main_arg3]
  congr 1
  funext a
  apply Fin.ext
  match a with
  | ⟨0, _⟩ => show win0_6.index t 0 * 64 + 1 * b.val = b.val; rw [hi.1]; omega
  | ⟨1, _⟩ => show win0_6.index t 1 * 1024 + 1 * q.val = 1024 * i.val + q.val; rw [hi.2]; omega

end Cert.KernelIdeal.HostRead

end
-- ==== Proof.BlockSum.lean ====
/-
  Splitting a sum over an axis of 4096 into its four consecutive runs of 1024.

  Position `1024·j + k` (`j < 4`, `k < 1024`) runs through `0 … 4095` exactly once as `(j, k)` runs through all
  pairs, so a sum over the axis is the sum over `j` of the sums over `k`. Addition in the extended reals is
  commutative and associative, which is all the regrouping needs: nothing here asks for a finite value.
-/
import proofs.«108664_j16355235463758_2_alg».proof.Proof.Spec
import Mathlib.Algebra.BigOperators.Fin

noncomputable section

namespace Cert.Spec

open Idealize.ShloMosaic Idealize.ShloMosaic.ValueIdx

/-- The pairs `(j, k)` with `j < 4`, `k < 1024` against the positions `0 … 4095`: `(j, k) ↦ 1024·j + k`, with
    inverse `n ↦ (n / 1024, n % 1024)`. -/
def blkEquiv : Fin 4 × Fin 1024 ≃ Fin 4096 where
  toFun p := blk p.1 p.2
  invFun n := (⟨n.val / 1024, by have := n.isLt; omega⟩, ⟨n.val % 1024, by omega⟩)
  left_inv := fun ⟨j, k⟩ => by
    have hk := k.isLt
    refine Prod.ext (Fin.ext ?_) (Fin.ext ?_)
    · show (1024 * j.val + k.val) / 1024 = j.val
      omega
    · show (1024 * j.val + k.val) % 1024 = k.val
      omega
  right_inv := fun n => Fin.ext (by
    show 1024 * (n.val / 1024) + n.val % 1024 = n.val
    omega)

/-- A sum over the axis of 4096 is the sum over its four runs of the sums over each run of 1024. -/
theorem sum_blocks (f : Fin 4096 → EReal) :
    ∑ kk : Fin 4096, f kk = ∑ j : Fin 4, ∑ k : Fin 1024, f (blk j k) :=
  (Equiv.sum_comp blkEquiv f).symm.trans (Fintype.sum_prod_type fun p => f (blkEquiv p))

/-- Adding four terms one after another onto zero is their sum. -/
theorem chain4 (p : Fin 4 → EReal) : (((0 + p 0) + p 1) + p 2) + p 3 = ∑ j : Fin 4, p j := by
  rw [Fin.sum_univ_four, zero_add]

/-- A weight row against row `n` of a bus matrix, grouped by the four runs of 1024 along the summed axis. -/
theorem rowDot_blocks (w : Fin 4096 → EReal) (M : Snn.Idx → EReal) (n : Fin 4096) :
    rowDot w M n = ∑ j : Fin 4, ∑ k : Fin 1024, w (blk j k) * M (ix2 n (blk j k)) :=
  sum_blocks fun kk => w kk * M (ix2 n kk)

end Cert.Spec

end
-- ==== Proof.Accum.lean ====
/-
  The accumulators and the output blocks as values of the argument arrays.

  Fix a row block i of the bus matrices. Over the four points (i, 0), …, (i, 3) an accumulator's entry (r, q) runs
  through 0 + p₀, (0 + p₀) + p₁, …, where pⱼ = ∑ₖ w[r, 1024j + k]·M[1024i + q, 1024j + k] is run j's share of the
  contraction; after the fourth point it is ∑ⱼ pⱼ, the whole sum ∑ₖ w[r,k]·M[1024i + q, k] (a sum over 4096 terms is
  the sum of its four runs of 1024; addition of extended reals is associative and commutative, so no finiteness is
  needed). Rows 0-63 of the stacked weights are V·cos θ and rows 64-127 are V·sin θ, so the halves of the two
  accumulators are the four bilinear sums, and the two output blocks at (i, 3) are the residuals at columns
  1024i + q.
-/
import proofs.«108664_j16355235463758_2_alg».proof.Proof.Steps
import proofs.«108664_j16355235463758_2_alg».proof.Proof.Payload
import proofs.«108664_j16355235463758_2_alg».proof.Proof.HostRead
import proofs.«108664_j16355235463758_2_alg».proof.Proof.BlockSum

noncomputable section
open Idealize.ShloMosaic Idealize.ShloMosaic.TcCoe Idealize.SL.Sem Idealize.ShloMosaic.ValueIdx

namespace Cert.KernelIdeal.Accum
open Cert.KernelIdeal Cert.KernelIdeal.Gen Cert.KernelIdeal.Pieces Cert.KernelIdeal.Payload Cert.KernelIdeal.Steps
open Cert.KernelIdeal.HostRead Cert.Spec

variable (m : (ℓ : Loc nD τ sig) → Buf (Elt Ideal) ℓ) (c : Dev nD)

/-- Entry (r, k) of the stacked weights: V·cos θ in rows 0-63, V·sin θ in rows 64-127. -/
abbrev cs (r : Fin 128) (kk : Fin 4096) : EReal := (V m c main_v5 : S128x4096.Idx → EReal) (ix2 r kk)

/-- Run j's share of entry (r, q) of the stacked weights against row block i of a bus matrix. -/
def part (M : Snn.Idx → EReal) (i j : Fin 4) (r : Fin 128) (q : Fin 1024) : EReal :=
  ∑ k : Fin 1024, cs m c r (blk j k) * M (ix2 (blk i q) (blk j k))

/-- The two accumulators after point t. -/
abbrev acc0 (t : Fin cfg0.N) : Vec Ideal S128x1024 .f32 := (outsAt0 m c t.val t.isLt).2.2.1
abbrev acc1 (t : Fin cfg0.N) : Vec Ideal S128x1024 .f32 := (outsAt0 m c t.val t.isLt).2.2.2

/-- Point (i, j) of the grid. -/
def pt (i : Fin 4) (j : ℕ) (hj : j < 4) : Fin cfg0.N :=
  ⟨4 * i.val + j, by have := i.isLt; rw [show cfg0.N = 16 from N_0]; omega⟩

theorem acc0_start (t : Fin cfg0.N) (i j : Fin 4) (ht : t.val = 4 * i.val + j.val) (hj : j.val = 0)
    (r : Fin 128) (q : Fin 1024) :
    acc0 m c t (ix2 r q) = 0 + part m c (m ((c : Thread nD τ).loc main_arg4)) i j r q := by
  unfold part
  refine (congrFun (acc0_first m c t (by omega)) (ix2 r q)).trans ?_
  refine (pay4_apply (iblk m c 2 t) (iblk m c 0 t) (k0_pay1 (F := Ideal)) r q).trans ?_
  refine congr (congrArg HAdd.hAdd (pay1_apply _)) (Finset.sum_congr rfl fun k _ => ?_)
  exact congr (congrArg HMul.hMul (iblk2_apply m c t i j ht r k)) (iblk0_apply m c t i j ht q k)

theorem acc1_start (t : Fin cfg0.N) (i j : Fin 4) (ht : t.val = 4 * i.val + j.val) (hj : j.val = 0)
    (r : Fin 128) (q : Fin 1024) :
    acc1 m c t (ix2 r q) = 0 + part m c (m ((c : Thread nD τ).loc main_arg5)) i j r q := by
  unfold part
  refine (congrFun (acc1_first m c t (by omega)) (ix2 r q)).trans ?_
  refine (pay5_apply (iblk m c 2 t) (iblk m c 1 t) (k0_pay2 (F := Ideal)) r q).trans ?_
  refine congr (congrArg HAdd.hAdd (pay2_apply _)) (Finset.sum_congr rfl fun k _ => ?_)
  exact congr (congrArg HMul.hMul (iblk2_apply m c t i j ht r k)) (iblk1_apply m c t i j ht q k)

theorem acc0_step (t t' : Fin cfg0.N) (i j : Fin 4) (ht : t.val = 4 * i.val + j.val) (hj : j.val ≠ 0)
    (ht' : t'.val = t.val - 1) (r : Fin 128) (q : Fin 1024) :
    acc0 m c t (ix2 r q) = acc0 m c t' (ix2 r q) + part m c (m ((c : Thread nD τ).loc main_arg4)) i j r q := by
  unfold part
  refine (congrFun (acc0_next m c t (by omega)) (ix2 r q)).trans ?_
  refine (pay4_apply (iblk m c 2 t) (iblk m c 0 t) _ r q).trans ?_
  refine congr (congrArg HAdd.hAdd ?_) (Finset.sum_congr rfl fun k _ => ?_)
  · exact congrFun (congrArg (fun o => o.2.2.1) (outsAt_congr m c _ _ _ t'.isLt ht'.symm)) (ix2 r q)
  · exact congr (congrArg HMul.hMul (iblk2_apply m c t i j ht r k)) (iblk0_apply m c t i j ht q k)

theorem acc1_step (t t' : Fin cfg0.N) (i j : Fin 4) (ht : t.val = 4 * i.val + j.val) (hj : j.val ≠ 0)
    (ht' : t'.val = t.val - 1) (r : Fin 128) (q : Fin 1024) :
    acc1 m c t (ix2 r q) = acc1 m c t' (ix2 r q) + part m c (m ((c : Thread nD τ).loc main_arg5)) i j r q := by
  unfold part
  refine (congrFun (acc1_next m c t (by omega)) (ix2 r q)).trans ?_
  refine (pay5_apply (iblk m c 2 t) (iblk m c 1 t) _ r q).trans ?_
  refine congr (congrArg HAdd.hAdd ?_) (Finset.sum_congr rfl fun k _ => ?_)
  · exact congrFun (congrArg (fun o => o.2.2.2) (outsAt_congr m c _ _ _ t'.isLt ht'.symm)) (ix2 r q)
  · exact congr (congrArg HMul.hMul (iblk2_apply m c t i j ht r k)) (iblk1_apply m c t i j ht q k)

/-- After the last point of row block i, entry (r, q) of the first accumulator is the whole sum against G. -/
theorem acc0_total (i : Fin 4) (r : Fin 128) (q : Fin 1024) :
    acc0 m c (pt i 3 (by omega)) (ix2 r q) = rowDot (cs m c r) (m ((c : Thread nD τ).loc main_arg4)) (blk i q) := by
  refine (acc0_step m c (pt i 3 (by omega)) (pt i 2 (by omega)) i 3 rfl (by decide) rfl r q).trans ?_
  rw [acc0_step m c (pt i 2 (by omega)) (pt i 1 (by omega)) i 2 rfl (by decide) rfl r q,
    acc0_step m c (pt i 1 (by omega)) (pt i 0 (by omega)) i 1 rfl (by decide) rfl r q,
    acc0_start m c (pt i 0 (by omega)) i 0 rfl rfl r q]
  refine (chain4 (fun j => part m c (m ((c : Thread nD τ).loc main_arg4)) i j r q)).trans ?_
  exact (rowDot_blocks (cs m c r) (m ((c : Thread nD τ).loc main_arg4)) (blk i q)).symm

/-- After the last point of row block i, entry (r, q) of the second accumulator is the whole sum against B. -/
theorem acc1_total (i : Fin 4) (r : Fin 128) (q : Fin 1024) :
    acc1 m c (pt i 3 (by omega)) (ix2 r q) = rowDot (cs m c r) (m ((c : Thread nD τ).loc main_arg5)) (blk i q) := by
  refine (acc1_step m c (pt i 3 (by omega)) (pt i 2 (by omega)) i 3 rfl (by decide) rfl r q).trans ?_
  rw [acc1_step m c (pt i 2 (by omega)) (pt i 1 (by omega)) i 2 rfl (by decide) rfl r q,
    acc1_step m c (pt i 1 (by omega)) (pt i 0 (by omega)) i 1 rfl (by decide) rfl r q,
    acc1_start m c (pt i 0 (by omega)) i 0 rfl rfl r q]
  refine (chain4 (fun j => part m c (m ((c : Thread nD τ).loc main_arg5)) i j r q)).trans ?_
  exact (rowDot_blocks (cs m c r) (m ((c : Thread nD τ).loc main_arg5)) (blk i q)).symm

/-- Rows 0-63 of the stacked weights are the cosine-weighted magnitudes, rows 64-127 the sine-weighted ones. -/
theorem cs_top_row (b : Fin 64) : cs m c (⟨b.val, by have := b.isLt; omega⟩ : Fin 128) = wcos (m ((c : Thread nD τ).loc main_arg0)) (m ((c : Thread nD τ).loc main_arg1)) b :=
  funext fun k => cs_top m c b k
theorem cs_bot_row (b : Fin 64) : cs m c (⟨64 + b.val, by have := b.isLt; omega⟩ : Fin 128) = wsin (m ((c : Thread nD τ).loc main_arg0)) (m ((c : Thread nD τ).loc main_arg1)) b :=
  funext fun k => cs_bot m c b k

/-- The first output block after the last point of row block i: the active-power residual at columns 1024i + q. -/
theorem out7_value (i : Fin 4) (b : Fin 64) (q : Fin 1024) :
    ((outsAt0 m c (pt i 3 (by omega)).val (pt i 3 (by omega)).isLt).1 : Vec Ideal S64x1024 .f32) (ix2 b q)
      = resP (m ((c : Thread nD τ).loc main_arg0)) (m ((c : Thread nD τ).loc main_arg1)) (m ((c : Thread nD τ).loc main_arg2)) (m ((c : Thread nD τ).loc main_arg4)) (m ((c : Thread nD τ).loc main_arg5)) (ix2 b (blk i q)) := by
  refine (congrFun (out7_last m c (pt i 3 (by omega)) (by show (4 * i.val + 3) % 4 = 3; omega)) (ix2 b q)).trans ?_
  refine (pay8_apply _ _ _ _ _ _ _ _ (ix2 b q)).trans ?_
  have hV := iblk3_apply m c (pt i 3 (by omega)) i 3 rfl b q
  have hθ := iblk4_apply m c (pt i 3 (by omega)) i 3 rfl b q
  have hP := iblk5_apply m c (pt i 3 (by omega)) i 3 rfl b q
  have hgc := (top_apply (acc0 m c (pt i 3 (by omega))) b q).trans
    ((acc0_total m c i _ q).trans (congrArg (fun w => rowDot w (m ((c : Thread nD τ).loc main_arg4)) (blk i q)) (cs_top_row m c b)))
  have hgs := (bot_apply (acc0 m c (pt i 3 (by omega))) b q).trans
    ((acc0_total m c i _ q).trans (congrArg (fun w => rowDot w (m ((c : Thread nD τ).loc main_arg4)) (blk i q)) (cs_bot_row m c b)))
  have hbc := (top_apply (acc1 m c (pt i 3 (by omega))) b q).trans
    ((acc1_total m c i _ q).trans (congrArg (fun w => rowDot w (m ((c : Thread nD τ).loc main_arg5)) (blk i q)) (cs_top_row m c b)))
  have hbs := (bot_apply (acc1 m c (pt i 3 (by omega))) b q).trans
    ((acc1_total m c i _ q).trans (congrArg (fun w => rowDot w (m ((c : Thread nD τ).loc main_arg5)) (blk i q)) (cs_bot_row m c b)))
  rw [hV, hθ, hP, hgc, hgs, hbc, hbs]
  rfl

/-- The second output block after the last point of row block i: the reactive-power residual at columns 1024i + q. -/
theorem out8_value (i : Fin 4) (b : Fin 64) (q : Fin 1024) :
    ((outsAt0 m c (pt i 3 (by omega)).val (pt i 3 (by omega)).isLt).2.1 : Vec Ideal S64x1024 .f32) (ix2 b q)
      = resQ (m ((c : Thread nD τ).loc main_arg0)) (m ((c : Thread nD τ).loc main_arg1)) (m ((c : Thread nD τ).loc main_arg3)) (m ((c : Thread nD τ).loc main_arg4)) (m ((c : Thread nD τ).loc main_arg5)) (ix2 b (blk i q)) := by
  refine (congrFun (out8_last m c (pt i 3 (by omega)) (by show (4 * i.val + 3) % 4 = 3; omega)) (ix2 b q)).trans ?_
  refine (pay9_apply _ _ _ _ _ _ _ _ (ix2 b q)).trans ?_
  have hV := iblk3_apply m c (pt i 3 (by omega)) i 3 rfl b q
  have hθ := iblk4_apply m c (pt i 3 (by omega)) i 3 rfl b q
  have hQ := iblk6_apply m c (pt i 3 (by omega)) i 3 rfl b q
  have hgc := (top_apply (acc0 m c (pt i 3 (by omega))) b q).trans
    ((acc0_total m c i _ q).trans (congrArg (fun w => rowDot w (m ((c : Thread nD τ).loc main_arg4)) (blk i q)) (cs_top_row m c b)))
  have hgs := (bot_apply (acc0 m c (pt i 3 (by omega))) b q).trans
    ((acc0_total m c i _ q).trans (congrArg (fun w => rowDot w (m ((c : Thread nD τ).loc main_arg4)) (blk i q)) (cs_bot_row m c b)))
  have hbc := (top_apply (acc1 m c (pt i 3 (by omega))) b q).trans
    ((acc1_total m c i _ q).trans (congrArg (fun w => rowDot w (m ((c : Thread nD τ).loc main_arg5)) (blk i q)) (cs_top_row m c b)))
  have hbs := (bot_apply (acc1 m c (pt i 3 (by omega))) b q).trans
    ((acc1_total m c i _ q).trans (congrArg (fun w => rowDot w (m ((c : Thread nD τ).loc main_arg5)) (blk i q)) (cs_bot_row m c b)))
  rw [hV, hθ, hQ, hgc, hgs, hbc, hbs]
  rfl

end Cert.KernelIdeal.Accum
end
-- ==== Proof.Blocks.lean ====
/-
  From blocks to arrays.

  Each of the two result arrays [64, 4096] is written in four column blocks [64, 1024], block i at the last point
  (i, 3) of row block i; what is written there is the residual at columns 1024i + q; the four blocks tile the array;
  so each array ends holding the residual function, and the kernel's run ends with the two residual arrays and its
  arguments unchanged.
-/
import proofs.«108664_j16355235463758_2_alg».proof.Proof.Accum
import proofs.«108664_j16355235463758_2_alg».proof.Proof.Gen.KernelIdeal.Value

noncomputable section
open Idealize.ShloMosaic Idealize.ShloMosaic.TcCoe Idealize.SL.Sem Idealize.ShloMosaic.ValueIdx
open Idealize.ShloMosaic.Pipeline (Dat)

namespace Cert.KernelIdeal.Blocks
open Cert.KernelIdeal Cert.KernelIdeal.Gen Cert.KernelIdeal.Accum Cert.Spec

variable (m : (ℓ : Loc nD τ sig) → Buf (Elt Ideal) ℓ) (c : Dev nD) (ρ : Dev nD → PrngReg)

/-- Output window 7's block position at point t: (0, t / 4), decided over the sixteen points. -/
theorem index7 : ∀ t : Fin cfg0.N, win0_7.index t 0 = 0 ∧ win0_7.index t 1 = t.val / 4 :=
  (by decide +kernel : ∀ t : Fin grid0.N, win0_7.index t 0 = 0 ∧ win0_7.index t 1 = t.val / 4)

/-- The active-power residual array, as contents of the result array. -/
abbrev result7 : Buf (Elt Ideal) ((c : Thread nD τ).loc main_v6_0) :=
  resP (m ((c : Thread nD τ).loc main_arg0)) (m ((c : Thread nD τ).loc main_arg1)) (m ((c : Thread nD τ).loc main_arg2)) (m ((c : Thread nD τ).loc main_arg4)) (m ((c : Thread nD τ).loc main_arg5))

/-- Entry y of the block the last point of row block i leaves is the residual where the block sits in the array. -/
theorem blk7_read (t : Fin cfg0.N) (i : Fin 4) (ht : t.val = 4 * i.val + 3) (y : S64x1024.Idx) :
    ((outsAt0 m c t.val t.isLt).1 : Vec Ideal S64x1024 .f32) y
      = ((cfg0.win 7).blk t).view.read (Elt Ideal) (result7 m c) y := by
  obtain rfl : t = pt i 3 (by decide) := Fin.ext ht
  obtain ⟨b, q, rfl⟩ : ∃ (b : Fin 64) (q : Fin 1024), y = ix2 b q := ⟨y 0, y 1, eq_ix2 y⟩
  refine (out7_value m c i b q).trans ?_
  rw [View.read_apply]
  have hi := index7 (pt i 3 (by decide))
  have hv : (pt i 3 (by decide)).val = 4 * i.val + 3 := rfl
  have := i.isLt
  congr 1
  funext a
  apply Fin.ext
  match a with
  | ⟨0, _⟩ => show b.val = win0_7.index (pt i 3 (by decide)) 0 * 64 + 1 * b.val; rw [hi.1]; omega
  | ⟨1, _⟩ => show 1024 * i.val + q.val = win0_7.index (pt i 3 (by decide)) 1 * 1024 + 1 * q.val; rw [hi.2, hv]; omega

/-- What a writing point writes back is its block of the residual array. -/
theorem flushed7_eq (t : Fin cfg0.N) (hf : (cfg0.win 7).flush t = true) :
    (dats m 0 c).flushed 7 t = ((cfg0.win 7).blk t).view.read (Elt Ideal) (result7 m c) := by
  have h3 : t.val % 4 = 3 := (flush0_7 t).mp hf
  have hN : t.val < 16 := lt_of_lt_of_eq t.isLt (show cfg0.N = 16 from N_0)
  rw [Cert.KernelIdeal.Value.flushed7]
  funext y
  exact blk7_read m c t ⟨t.val / 4, by omega⟩ (by show t.val = 4 * (t.val / 4) + 3; omega) y

/-- An entry of the array is in point t's block iff each coordinate is in the block's range on its axis. -/
theorem mem_blk7 (t : Fin cfg0.N) (idx : S64x4096.Idx) :
    idx ∈ ((cfg0.win 7).blk t).view.set ↔ ∀ a : Fin 2, win0_7.index t a * S64x1024.size a ≤ (idx a).val
      ∧ (idx a).val < win0_7.index t a * S64x1024.size a + S64x1024.size a := by
  show idx ∈ ((View.whole main_v6_0).slice (win0_7.rect t)).set ↔ _
  rw [View.set_slice_whole, Rect.mem_set_unit]
  exact Iff.rfl

/-- Every entry (b, n) of the array lies in the block written at the last point of row block n / 1024. -/
theorem cover7 (idx : S64x4096.Idx) :
    ∃ t : Fin cfg0.N, (cfg0.win 7).flush t = true ∧ idx ∈ ((cfg0.win 7).blk t).view.set := by
  have h0 : (idx 0).val < 64 := (idx 0).isLt
  have h1 : (idx 1).val < 4096 := (idx 1).isLt
  have hq : (idx 1).val / 1024 < 4 := by omega
  have hv : (pt ⟨(idx 1).val / 1024, hq⟩ 3 (by decide)).val = 4 * ((idx 1).val / 1024) + 3 := rfl
  have hi := index7 (pt ⟨(idx 1).val / 1024, hq⟩ 3 (by decide))
  refine ⟨pt ⟨(idx 1).val / 1024, hq⟩ 3 (by decide), (flush0_7 _).mpr (by rw [hv]; omega), ?_⟩
  rw [mem_blk7]
  intro a
  match a with
  | ⟨0, _⟩ =>
    show win0_7.index (pt ⟨(idx 1).val / 1024, hq⟩ 3 (by decide)) 0 * 64 ≤ (idx 0).val
      ∧ (idx 0).val < win0_7.index (pt ⟨(idx 1).val / 1024, hq⟩ 3 (by decide)) 0 * 64 + 64
    rw [hi.1]; omega
  | ⟨1, _⟩ =>
    show win0_7.index (pt ⟨(idx 1).val / 1024, hq⟩ 3 (by decide)) 1 * 1024 ≤ (idx 1).val
      ∧ (idx 1).val < win0_7.index (pt ⟨(idx 1).val / 1024, hq⟩ 3 (by decide)) 1 * 1024 + 1024
    rw [hi.2, hv]; omega

/-- So the result array ends holding the active-power residuals. -/
theorem final7 : (dats m 0 c).arrAt 7 cfg0.N = result7 m c :=
  (dats m 0 c).arrAt_eq_of_cover 7 (result7 m c) (flushed7_eq m c) (fun idx => cover7 idx)

/-- Output window 8's block position at point t: (0, t / 4), decided over the sixteen points. -/
theorem index8 : ∀ t : Fin cfg0.N, win0_8.index t 0 = 0 ∧ win0_8.index t 1 = t.val / 4 :=
  (by decide +kernel : ∀ t : Fin grid0.N, win0_8.index t 0 = 0 ∧ win0_8.index t 1 = t.val / 4)

/-- The reactive-power residual array, as contents of the result array. -/
abbrev result8 : Buf (Elt Ideal) ((c : Thread nD τ).loc main_v6_1) :=
  resQ (m ((c : Thread nD τ).loc main_arg0)) (m ((c : Thread nD τ).loc main_arg1)) (m ((c : Thread nD τ).loc main_arg3)) (m ((c : Thread nD τ).loc main_arg4)) (m ((c : Thread nD τ).loc main_arg5))

/-- Entry y of the block the last point of row block i leaves is the residual where the block sits in the array. -/
theorem blk8_read (t : Fin cfg0.N) (i : Fin 4) (ht : t.val = 4 * i.val + 3) (y : S64x1024.Idx) :
    ((outsAt0 m c t.val t.isLt).2.1 : Vec Ideal S64x1024 .f32) y
      = ((cfg0.win 8).blk t).view.read (Elt Ideal) (result8 m c) y := by
  obtain rfl : t = pt i 3 (by decide) := Fin.ext ht
  obtain ⟨b, q, rfl⟩ : ∃ (b : Fin 64) (q : Fin 1024), y = ix2 b q := ⟨y 0, y 1, eq_ix2 y⟩
  refine (out8_value m c i b q).trans ?_
  rw [View.read_apply]
  have hi := index8 (pt i 3 (by decide))
  have hv : (pt i 3 (by decide)).val = 4 * i.val + 3 := rfl
  have := i.isLt
  congr 1
  funext a
  apply Fin.ext
  match a with
  | ⟨0, _⟩ => show b.val = win0_8.index (pt i 3 (by decide)) 0 * 64 + 1 * b.val; rw [hi.1]; omega
  | ⟨1, _⟩ => show 1024 * i.val + q.val = win0_8.index (pt i 3 (by decide)) 1 * 1024 + 1 * q.val; rw [hi.2, hv]; omega

/-- What a writing point writes back is its block of the residual array. -/
theorem flushed8_eq (t : Fin cfg0.N) (hf : (cfg0.win 8).flush t = true) :
    (dats m 0 c).flushed 8 t = ((cfg0.win 8).blk t).view.read (Elt Ideal) (result8 m c) := by
  have h3 : t.val % 4 = 3 := (flush0_8 t).mp hf
  have hN : t.val < 16 := lt_of_lt_of_eq t.isLt (show cfg0.N = 16 from N_0)
  rw [Cert.KernelIdeal.Value.flushed8]
  funext y
  exact blk8_read m c t ⟨t.val / 4, by omega⟩ (by show t.val = 4 * (t.val / 4) + 3; omega) y

/-- An entry of the array is in point t's block iff each coordinate is in the block's range on its axis. -/
theorem mem_blk8 (t : Fin cfg0.N) (idx : S64x4096.Idx) :
    idx ∈ ((cfg0.win 8).blk t).view.set ↔ ∀ a : Fin 2, win0_8.index t a * S64x1024.size a ≤ (idx a).val
      ∧ (idx a).val < win0_8.index t a * S64x1024.size a + S64x1024.size a := by
  show idx ∈ ((View.whole main_v6_1).slice (win0_8.rect t)).set ↔ _
  rw [View.set_slice_whole, Rect.mem_set_unit]
  exact Iff.rfl

/-- Every entry (b, n) of the array lies in the block written at the last point of row block n / 1024. -/
theorem cover8 (idx : S64x4096.Idx) :
    ∃ t : Fin cfg0.N, (cfg0.win 8).flush t = true ∧ idx ∈ ((cfg0.win 8).blk t).view.set := by
  have h0 : (idx 0).val < 64 := (idx 0).isLt
  have h1 : (idx 1).val < 4096 := (idx 1).isLt
  have hq : (idx 1).val / 1024 < 4 := by omega
  have hv : (pt ⟨(idx 1).val / 1024, hq⟩ 3 (by decide)).val = 4 * ((idx 1).val / 1024) + 3 := rfl
  have hi := index8 (pt ⟨(idx 1).val / 1024, hq⟩ 3 (by decide))
  refine ⟨pt ⟨(idx 1).val / 1024, hq⟩ 3 (by decide), (flush0_8 _).mpr (by rw [hv]; omega), ?_⟩
  rw [mem_blk8]
  intro a
  match a with
  | ⟨0, _⟩ =>
    show win0_8.index (pt ⟨(idx 1).val / 1024, hq⟩ 3 (by decide)) 0 * 64 ≤ (idx 0).val
      ∧ (idx 0).val < win0_8.index (pt ⟨(idx 1).val / 1024, hq⟩ 3 (by decide)) 0 * 64 + 64
    rw [hi.1]; omega
  | ⟨1, _⟩ =>
    show win0_8.index (pt ⟨(idx 1).val / 1024, hq⟩ 3 (by decide)) 1 * 1024 ≤ (idx 1).val
      ∧ (idx 1).val < win0_8.index (pt ⟨(idx 1).val / 1024, hq⟩ 3 (by decide)) 1 * 1024 + 1024
    rw [hi.2, hv]; omega

/-- So the result array ends holding the reactive-power residuals. -/
theorem final8 : (dats m 0 c).arrAt 8 cfg0.N = result8 m c :=
  (dats m 0 c).arrAt_eq_of_cover 8 (result8 m c) (flushed8_eq m c) (fun idx => cover8 idx)

/-- The kernel's run: the two result arrays end at the two residual arrays, the arguments as they were. -/
theorem run : θ_run defs (onTc (τ := τ) (main (F := Ideal))) ⟨m, fun _ => 0, ρ⟩ fun r => ∀ c : Dev nD,
      r.2.mem ((c : Thread nD τ).loc main_v6_0) = result7 m c
      ∧ r.2.mem ((c : Thread nD τ).loc main_v6_1) = result8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final7 m c), (h c).2.1.trans (final8 m c), (h c).2.2⟩)
    (Cert.KernelIdeal.Value.run_blocks m ρ)

end Cert.KernelIdeal.Blocks
end
-- ==== Proof.RefSpec.lean ====
/-
  The reference program computes the residuals of the specification.

  Read at one position `(b, n)`, each of the reference's four contractions is a sum over `k` of a weighted magnitude
  `V[b,k]·cos θ[b,k]` or `V[b,k]·sin θ[b,k]` times an entry `[n,k]` of a bus matrix, with the weight on the left,
  which is the row sum of the specification; the elementwise stages around them are the specification's
  formula term by term. So the two agree as written, with no regrouping of any sum.
-/
import proofs.«108664_j16355235463758_2_alg».proof.Proof.Gen.ReferenceIdeal.Read
import proofs.«108664_j16355235463758_2_alg».proof.Proof.Spec

noncomputable section

namespace Cert.ReferenceIdeal.RefSpec

open Cert.ReferenceIdeal Cert.ReferenceIdeal.Gen Cert.ReferenceIdeal.Read
open Idealize.ShloMosaic Idealize.ShloMosaic.ValueIdx Idealize.SL.Sem

/-! The positions a contraction reads: the left operand at `(b, k)`, the right operand at `(n, k)`. -/

theorem lidx4 (i : S64x4096.Idx) (k : Fin 4096) :
    lidx_main_v4 i k = ix2 (n0 := 64) (n1 := 4096) (i 0) k :=
  funext fun a => Fin.ext (by match a with | ⟨0, _⟩ => rfl | ⟨1, _⟩ => rfl)
theorem ridx4 (i : S64x4096.Idx) (k : Fin 4096) :
    ridx_main_v4 i k = ix2 (n0 := 4096) (n1 := 4096) (i 1) k :=
  funext fun a => Fin.ext (by match a with | ⟨0, _⟩ => rfl | ⟨1, _⟩ => rfl)
theorem lidx5 (i : S64x4096.Idx) (k : Fin 4096) :
    lidx_main_v5 i k = ix2 (n0 := 64) (n1 := 4096) (i 0) k :=
  funext fun a => Fin.ext (by match a with | ⟨0, _⟩ => rfl | ⟨1, _⟩ => rfl)
theorem ridx5 (i : S64x4096.Idx) (k : Fin 4096) :
    ridx_main_v5 i k = ix2 (n0 := 4096) (n1 := 4096) (i 1) k :=
  funext fun a => Fin.ext (by match a with | ⟨0, _⟩ => rfl | ⟨1, _⟩ => rfl)
theorem lidx6 (i : S64x4096.Idx) (k : Fin 4096) :
    lidx_main_v6 i k = ix2 (n0 := 64) (n1 := 4096) (i 0) k :=
  funext fun a => Fin.ext (by match a with | ⟨0, _⟩ => rfl | ⟨1, _⟩ => rfl)
theorem ridx6 (i : S64x4096.Idx) (k : Fin 4096) :
    ridx_main_v6 i k = ix2 (n0 := 4096) (n1 := 4096) (i 1) k :=
  funext fun a => Fin.ext (by match a with | ⟨0, _⟩ => rfl | ⟨1, _⟩ => rfl)
theorem lidx7 (i : S64x4096.Idx) (k : Fin 4096) :
    lidx_main_v7 i k = ix2 (n0 := 64) (n1 := 4096) (i 0) k :=
  funext fun a => Fin.ext (by match a with | ⟨0, _⟩ => rfl | ⟨1, _⟩ => rfl)
theorem ridx7 (i : S64x4096.Idx) (k : Fin 4096) :
    ridx_main_v7 i k = ix2 (n0 := 4096) (n1 := 4096) (i 1) k :=
  funext fun a => Fin.ext (by match a with | ⟨0, _⟩ => rfl | ⟨1, _⟩ => rfl)

/-- The reference's first result is the active-power residual. -/
theorem ref_P (x0 x1 x2 : (⟨S64x4096, .f32⟩ : BufTy).Contents (Elt Ideal))
    (x4 x5 : (⟨S4096x4096, .f32⟩ : BufTy).Contents (Elt Ideal)) :
    Cert.ReferenceIdeal.Read.val_main_v20 (F := Ideal) x0 x1 x2 x4 x5 = Cert.Spec.resP x0 x1 x2 x4 x5 := by
  funext i
  rw [val_main_v20_apply, val_main_v13_apply, val_main_v12_apply, val_main_v9_apply, val_main_v11_apply,
    val_main_v8_apply, val_main_v10_apply, val_main_v4_apply, val_main_v7_apply, val_main_v5_apply,
    val_main_v6_apply]
  simp only [val_main_v2_apply, val_main_v3_apply, val_main_v0_apply, val_main_v1_apply,
    lidx4, lidx5, lidx6, lidx7, ridx4, ridx5, ridx6, ridx7,
    Ideal.mulf_def, Ideal.addf_def, Ideal.subf_def, Ideal.hostUnary_cos_def, Ideal.hostUnary_sin_def,
    Cert.Spec.resP, Cert.Spec.rowDot, Cert.Spec.wcos, Cert.Spec.wsin]

/-- The reference's second result is the reactive-power residual. -/
theorem ref_Q (x0 x1 x3 : (⟨S64x4096, .f32⟩ : BufTy).Contents (Elt Ideal))
    (x4 x5 : (⟨S4096x4096, .f32⟩ : BufTy).Contents (Elt Ideal)) :
    Cert.ReferenceIdeal.Read.val_main_v21 (F := Ideal) x0 x1 x3 x4 x5 = Cert.Spec.resQ x0 x1 x3 x4 x5 := by
  funext i
  rw [val_main_v21_apply, val_main_v19_apply, val_main_v18_apply, val_main_v15_apply, val_main_v17_apply,
    val_main_v14_apply, val_main_v16_apply, val_main_v4_apply, val_main_v7_apply, val_main_v5_apply,
    val_main_v6_apply]
  simp only [val_main_v2_apply, val_main_v3_apply, val_main_v0_apply, val_main_v1_apply,
    lidx4, lidx5, lidx6, lidx7, ridx4, ridx5, ridx6, ridx7,
    Ideal.mulf_def, Ideal.addf_def, Ideal.subf_def, Ideal.hostUnary_cos_def, Ideal.hostUnary_sin_def,
    Cert.Spec.resQ, Cert.Spec.rowDot, Cert.Spec.wcos, Cert.Spec.wsin]

end Cert.ReferenceIdeal.RefSpec

end
-- ==== Proof.lean ====
/-
  The power-flow residual kernel against its jnp reference.

  Both programs compute, for each batch row b and bus n, the residuals

    resP[b,n] = V[b,n]·(cos θ[b,n]·((G c)[b,n] + (B s)[b,n]) + sin θ[b,n]·((G s)[b,n] − (B c)[b,n])) − P[b,n]
    resQ[b,n] = V[b,n]·(sin θ[b,n]·((G c)[b,n] + (B s)[b,n]) − cos θ[b,n]·((G s)[b,n] − (B c)[b,n])) − Q[b,n]

  with c = V·cos θ, s = V·sin θ and (M w)[b,n] = ∑ₖ w[b,k]·M[n,k] (Proof/Spec.lean). The reference takes each of the
  four sums over k whole. The kernel stacks c over s, cuts the sum over k into four runs of 1024 and adds the runs'
  products into two accumulators that start from zero, one grid point per run, and forms the residuals after the
  fourth. Over the extended reals addition is associative and commutative with 0 neutral, so the grouped sum is the
  whole sum and the two results are equal element by element; a change of float format is the identity there, and
  the cosine and sine inside the kernel are the host's. The inputs' finiteness is not used.

  The modules: Spec (the two residual functions), BlockSum (a sum over 4096 terms as four runs of 1024), RefSpec (the
  reference's two results are the residual functions), Pieces and Steps (what each grid point leaves in the
  accumulators and the output blocks, from what the point before left), Payload (the stores' arithmetic at an
  index), HostRead (the stacked weights and the input blocks at an index), Accum (the accumulators after a row
  block's last point are the whole sums; the output blocks are the residuals), Blocks (the blocks tile the result
  arrays). The frames of the two kernel programs and the runs of both sides are the generated modules'.
-/
import proofs.«108664_j16355235463758_2_alg».proof.Defs
import proofs.«108664_j16355235463758_2_alg».proof.Proof.Gen.Kernel
import proofs.«108664_j16355235463758_2_alg».proof.Proof.Gen.Kernel.Skeleton
import proofs.«108664_j16355235463758_2_alg».proof.Proof.Gen.Kernel.Launch
import proofs.«108664_j16355235463758_2_alg».proof.Proof.Gen.Kernel.Points
import proofs.«108664_j16355235463758_2_alg».proof.Proof.Gen.Kernel.Frame
import proofs.«108664_j16355235463758_2_alg».proof.Proof.Gen.KernelIdeal
import proofs.«108664_j16355235463758_2_alg».proof.Proof.Gen.KernelIdeal.Skeleton
import proofs.«108664_j16355235463758_2_alg».proof.Proof.Gen.KernelIdeal.Launch
import proofs.«108664_j16355235463758_2_alg».proof.Proof.Gen.KernelIdeal.Points
import proofs.«108664_j16355235463758_2_alg».proof.Proof.Gen.KernelIdeal.Frame
import proofs.«108664_j16355235463758_2_alg».proof.Proof.Gen.ReferenceIdeal
import proofs.«108664_j16355235463758_2_alg».proof.Proof.Gen.Pre_finite_inputs
import proofs.«108664_j16355235463758_2_alg».proof.Proof.Gen.KernelIdeal.Value
import proofs.«108664_j16355235463758_2_alg».proof.Proof.Gen.ReferenceIdeal.Run
import proofs.«108664_j16355235463758_2_alg».proof.Proof.Gen.ReferenceIdeal.Read
import proofs.«108664_j16355235463758_2_alg».proof.Proof.Blocks
import proofs.«108664_j16355235463758_2_alg».proof.Proof.RefSpec
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run with the two results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- Reading the kernel over the extended reals rewrote no operation. -/
theorem preserves : Cert.preserves_Kernel_KernelIdeal := trivial

/-- Over the extended reals the kernel's two result arrays and the reference's are the two residual arrays of
    arguments that agree. -/
theorem algebraic : Cert.algebraic_KernelIdeal_ReferenceIdeal := by
  intro m ρ m' ρ' _ hagree
  refine ⟨fun c => Cert.KernelIdeal.Blocks.result7 m c, fun c => Cert.KernelIdeal.Blocks.result8 m c,
    Cert.KernelIdeal.Blocks.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v20_eq, Cert.ReferenceIdeal.RefSpec.ref_P, (hagree c).1, (hagree c).2.1,
      (hagree c).2.2.1, (hagree c).2.2.2.2.1, (hagree c).2.2.2.2.2]
  · rw [Cert.ReferenceIdeal.Read.val_main_v21_eq, Cert.ReferenceIdeal.RefSpec.ref_Q, (hagree c).1, (hagree c).2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
